-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v31)) (v1 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_v51) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_v50) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x55 : Shape := ⟨2, ![50000, 55]⟩
abbrev S3000000x55 : Shape := ⟨2, ![3000000, 55]⟩
abbrev S50000 : Shape := ⟨1, ![50000]⟩
abbrev S500 : Shape := ⟨1, ![500]⟩
abbrev S3000000x3 : Shape := ⟨2, ![3000000, 3]⟩
abbrev S3000000 : Shape := ⟨1, ![3000000]⟩
abbrev S55x64 : Shape := ⟨2, ![55, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S_ : Shape := ⟨0, ![]⟩

class Facts : Prop where
  bcast_S_S50000x55 : S_.BroadcastsInDim S50000x55 (![] : Fin 0 → Fin S50000x55.rank)
  reducesTo_S50000x55_S_d0_1 : S50000x55.ReducesTo [0, 1] S_
  h_S_ : 0 < S_.numel
  bcast_S_S3000000x55 : S_.BroadcastsInDim S3000000x55 (![] : Fin 0 → Fin S3000000x55.rank)
  reducesTo_S3000000x55_S_d0_1 : S3000000x55.ReducesTo [0, 1] S_
  bcast_S_S55x64 : S_.BroadcastsInDim S55x64 (![] : Fin 0 → Fin S55x64.rank)
  reducesTo_S55x64_S_d0_1 : S55x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg12 : FVec F S1 .f32) (main_v33 : IVec S_ 1) : IVec S_ 1 :=
  let main_v34 : FVec F S1 .f32 := Host.absf main_arg12
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  main_v38

def fn_part1 {F : FTy → Type} [FloatOps F] (main_arg9 : FVec F S64x64 .f32) (main_arg10 : FVec F S64 .f32) (main_arg11 : FVec F S64x1 .f32) (main_arg12 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg9
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg10
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x1 .f32 := Host.absf main_arg11
  let main_cst_10 : FVec F S_ .f32 := constant S_ .f32 0x7F800000#32
  let main_v30 : FVec F S64x1 .f32 := broadcastInDim S64x1 ![] bcast_S_S64x1 main_cst_10
  let main_v31 : IVec S64x1 1 := cmpf .olt main_v29 main_v30
  let main_c_11 : IVec S_ 1 := constantI S_ 1 1#1
  let main_v32 : IVec S_ 1 := (fun x v => Host.reduce IntOp.andi x v reducesTo_S64x1_S_d0_1 h_S_) main_v31 main_c_11
  let main_v33 : IVec S_ 1 := andi main_v28 main_v32
  fn_part2 (F := F) main_arg12 main_v33

def fn {F : FTy → Type} [FloatOps F] (main_arg0 : FVec F S50000x55 .f32) (main_arg1 : FVec F S3000000x55 .f32) (main_arg2 : IVec S50000 32) (main_arg3 : IVec S500 32) (main_arg4 : IVec S50000 32) (main_arg5 : IVec S3000000x3 32) (main_arg6 : IVec S3000000 32) (main_arg7 : FVec F S55x64 .f32) (main_arg8 : FVec F S64 .f32) (main_arg9 : FVec F S64x64 .f32) (main_arg10 : FVec F S64 .f32) (main_arg11 : FVec F S64x1 .f32) (main_arg12 : FVec F S1 .f32) : IVec S_ 1 :=
  let main_v0 : FVec F S50000x55 .f32 := Host.absf main_arg0
  let main_cst : FVec F S_ .f32 := constant S_ .f32 0x7F800000#32
  let main_v1 : FVec F S50000x55 .f32 := broadcastInDim S50000x55 ![] bcast_S_S50000x55 main_cst
  let main_v2 : IVec S50000x55 1 := cmpf .olt main_v0 main_v1
  let main_c : IVec S_ 1 := constantI S_ 1 1#1
  let main_v3 : IVec S_ 1 := (fun x v => Host.reduce IntOp.andi x v reducesTo_S50000x55_S_d0_1 h_S_) main_v2 main_c
  let main_v4 : FVec F S3000000x55 .f32 := Host.absf main_arg1
  let main_cst_0 : FVec F S_ .f32 := constant S_ .f32 0x7F800000#32
  let main_v5 : FVec F S3000000x55 .f32 := broadcastInDim S3000000x55 ![] bcast_S_S3000000x55 main_cst_0
  let main_v6 : IVec S3000000x55 1 := cmpf .olt main_v4 main_v5
  let main_c_1 : IVec S_ 1 := constantI S_ 1 1#1
  let main_v7 : IVec S_ 1 := (fun x v => Host.reduce IntOp.andi x v reducesTo_S3000000x55_S_d0_1 h_S_) main_v6 main_c_1
  let main_v8 : IVec S_ 1 := andi main_v3 main_v7
  let main_v9 : FVec F S55x64 .f32 := Host.absf main_arg7
  let main_cst_2 : FVec F S_ .f32 := constant S_ .f32 0x7F800000#32
  let main_v10 : FVec F S55x64 .f32 := broadcastInDim S55x64 ![] bcast_S_S55x64 main_cst_2
  let main_v11 : IVec S55x64 1 := cmpf .olt main_v9 main_v10
  let main_c_3 : IVec S_ 1 := constantI S_ 1 1#1
  let main_v12 : IVec S_ 1 := (fun x v => Host.reduce IntOp.andi x v reducesTo_S55x64_S_d0_1 h_S_) main_v11 main_c_3
  let main_v13 : IVec S_ 1 := andi main_v8 main_v12
  let main_v14 : FVec F S64 .f32 := Host.absf main_arg8
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg9 main_arg10 main_arg11 main_arg12 main_v13 main_v16
-- ==== Kernel.lean ====
abbrev S50000x55 : Shape := ⟨2, ![50000, 55]⟩
abbrev S3000000x55 : Shape := ⟨2, ![3000000, 55]⟩
abbrev S50000 : Shape := ⟨1, ![50000]⟩
abbrev S500 : Shape := ⟨1, ![500]⟩
abbrev S3000000x3 : Shape := ⟨2, ![3000000, 3]⟩
abbrev S3000000 : Shape := ⟨1, ![3000000]⟩
abbrev S55x64 : Shape := ⟨2, ![55, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S50000x64 : Shape := ⟨2, ![50000, 64]⟩
abbrev S1x64 : Shape := ⟨2, ![1, 64]⟩
abbrev S_ : Shape := ⟨0, ![]⟩
abbrev S50000x1 : Shape := ⟨2, ![50000, 1]⟩
abbrev S1x1 : Shape := ⟨2, ![1, 1]⟩
abbrev S3000000x1 : Shape := ⟨2, ![3000000, 1]⟩
abbrev S10000x55 : Shape := ⟨2, ![10000, 55]⟩
abbrev S10000x1 : Shape := ⟨2, ![10000, 1]⟩
abbrev S10000 : Shape := ⟨1, ![10000]⟩
abbrev S150000 : Shape := ⟨1, ![150000]⟩

abbrev nBuf : Space → Nat
  | .hbm => 73
  | .vmem => 6
  | .smem => 0
  | _ => 0

abbrev bufTy : (tb : Table) → Fin (tcTables nBuf tb) → BufTy
  | .hbm, ⟨0, _⟩ => ⟨S50000x55, .f32⟩
  | .hbm, ⟨1, _⟩ => ⟨S3000000x55, .f32⟩
  | .hbm, ⟨2, _⟩ => ⟨S50000, .i32⟩
  | .hbm, ⟨3, _⟩ => ⟨S500, .i32⟩
  | .hbm, ⟨4, _⟩ => ⟨S50000, .i32⟩
  | .hbm, ⟨5, _⟩ => ⟨S3000000x3, .i32⟩
  | .hbm, ⟨6, _⟩ => ⟨S3000000, .i32⟩
  | .hbm, ⟨7, _⟩ => ⟨S55x64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S64x1, .f32⟩
  | .hbm, ⟨12, _⟩ => ⟨S1, .f32⟩
  | .hbm, ⟨13, _⟩ => ⟨S50000x64, .f32⟩
  | .hbm, ⟨14, _⟩ => ⟨S1x64, .f32⟩
  | .hbm, ⟨15, _⟩ => ⟨S50000x64, .f32⟩
  | .hbm, ⟨16, _⟩ => ⟨S50000x64, .f32⟩
  | .hbm, ⟨17, _⟩ => ⟨S50000x64, .f32⟩
  | .hbm, ⟨18, _⟩ => ⟨S_, .f32⟩
  | .hbm, ⟨19, _⟩ => ⟨S50000x64, .f32⟩
  | .hbm, ⟨20, _⟩ => ⟨S50000x64, .f32⟩
  | .hbm, ⟨21, _⟩ => ⟨S50000x64, .f32⟩
  | .hbm, ⟨22, _⟩ => ⟨S1x64, .f32⟩
  | .hbm, ⟨23, _⟩ => ⟨S50000x64, .f32⟩
  | .hbm, ⟨24, _⟩ => ⟨S50000x64, .f32⟩
  | .hbm, ⟨25, _⟩ => ⟨S50000x64, .f32⟩
  | .hbm, ⟨26, _⟩ => ⟨S_, .f32⟩
  | .hbm, ⟨27, _⟩ => ⟨S50000x64, .f32⟩
  | .hbm, ⟨28, _⟩ => ⟨S50000x64, .f32⟩
  | .hbm, ⟨29, _⟩ => ⟨S50000x1, .f32⟩
  | .hbm, ⟨30, _⟩ => ⟨S1x1, .f32⟩
  | .hbm, ⟨31, _⟩ => ⟨S50000x1, .f32⟩
  | .hbm, ⟨32, _⟩ => ⟨S50000x1, .f32⟩
  | .hbm, ⟨33, _⟩ => ⟨S_, .f32⟩
  | .hbm, ⟨34, _⟩ => ⟨S50000x1, .f32⟩
  | .hbm, ⟨35, _⟩ => ⟨S50000x64, .f32⟩
  | .hbm, ⟨36, _⟩ => ⟨S50000x64, .f32⟩
  | .hbm, ⟨37, _⟩ => ⟨S50000x64, .f32⟩
  | .hbm, ⟨38, _⟩ => ⟨S50000x64, .f32⟩
  | .hbm, ⟨39, _⟩ => ⟨S50000x64, .f32⟩
  | .hbm, ⟨40, _⟩ => ⟨S50000x64, .f32⟩
  | .hbm, ⟨41, _⟩ => ⟨S50000x64, .f32⟩
  | .hbm, ⟨42, _⟩ => ⟨S50000x64, .f32⟩
  | .hbm, ⟨43, _⟩ => ⟨S50000x55, .f32⟩
  | .hbm, ⟨44, _⟩ => ⟨S50000, .f32⟩
  | .hbm, ⟨45, _⟩ => ⟨S_, .f32⟩
  | .hbm, ⟨46, _⟩ => ⟨S500, .f32⟩
  | .hbm, ⟨47, _⟩ => ⟨S50000x1, .i32⟩
  | .hbm, ⟨48, _⟩ => ⟨S500, .f32⟩
  | .hbm, ⟨49, _⟩ => ⟨S50000x55, .bf16⟩
  | .hbm, ⟨50, _⟩ => ⟨S3000000x1, .i32⟩
  | .hbm, ⟨51, _⟩ => ⟨S3000000, .i32⟩
  | .hbm, ⟨52, _⟩ => ⟨S_, .i32⟩
  | .hbm, ⟨53, _⟩ => ⟨S3000000, .i32⟩
  | .hbm, ⟨54, _⟩ => ⟨S3000000, .i1⟩
  | .hbm, ⟨55, _⟩ => ⟨S_, .i32⟩
  | .hbm, ⟨56, _⟩ => ⟨S3000000, .i32⟩
  | .hbm, ⟨57, _⟩ => ⟨S3000000, .i32⟩
  | .hbm, ⟨58, _⟩ => ⟨S3000000, .i32⟩
  | .hbm, ⟨59, _⟩ => ⟨S3000000x1, .i32⟩
  | .hbm, ⟨60, _⟩ => ⟨S3000000x55, .bf16⟩
  | .hbm, ⟨61, _⟩ => ⟨S3000000x1, .f32⟩
  | .hbm, ⟨62, _⟩ => ⟨S3000000, .f32⟩
  | .hbm, ⟨63, _⟩ => ⟨S_, .i32⟩
  | .hbm, ⟨64, _⟩ => ⟨S3000000, .i32⟩
  | .hbm, ⟨65, _⟩ => ⟨S3000000, .i32⟩
  | .hbm, ⟨66, _⟩ => ⟨S3000000x1, .i32⟩
  | .hbm, ⟨67, _⟩ => ⟨S3000000, .i32⟩
  | .hbm, ⟨68, _⟩ => ⟨S3000000, .i32⟩
  | .hbm, ⟨69, _⟩ => ⟨S_, .f32⟩
  | .hbm, ⟨70, _⟩ => ⟨S150000, .f32⟩
  | .hbm, ⟨71, _⟩ => ⟨S3000000x1, .i32⟩
  | .hbm, ⟨72, _⟩ => ⟨S150000, .f32⟩
  | .local _ .vmem, ⟨0, _⟩ => ⟨S10000x55, .f32⟩
  | .local _ .vmem, ⟨1, _⟩ => ⟨S10000x55, .f32⟩
  | .local _ .vmem, ⟨2, _⟩ => ⟨S10000x55, .bf16⟩
  | .local _ .vmem, ⟨3, _⟩ => ⟨S10000x55, .bf16⟩
  | .local _ .vmem, ⟨4, _⟩ => ⟨S10000x1, .f32⟩
  | .local _ .vmem, ⟨5, _⟩ => ⟨S10000x1, .f32⟩
  | _, _ => ⟨S50000x55, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_cst : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_0 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_1 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_2 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_c : Ref sig .tc := ⟨.hbm, 52, rfl⟩
abbrev main_v35 : Ref sig .tc := ⟨.hbm, 53, rfl⟩
abbrev main_v36 : Ref sig .tc := ⟨.hbm, 54, rfl⟩
abbrev main_c_3 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_c_4 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_5 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![300], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x55 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x55 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  bcast_S_S50000x1 : S_.BroadcastsInDim S50000x1 (![] : Fin 0 → Fin S50000x1.rank)
  shapeCasts_S50000x1_S50000 : S50000x1.ShapeCasts S50000
  bcast_S_S500 : S_.BroadcastsInDim S500 (![] : Fin 0 → Fin S500.rank)
  bcast_S50000_S50000x1_0 : S50000.BroadcastsInDim S50000x1 (![0] : Fin 1 → Fin S50000x1.rank)
  bitsLt_bf16_f32 : FTy.bits .bf16 < FTy.bits .f32
  slices_S3000000x3_S3000000x1_0_0 : S3000000x3.Slices ![0, 0] S3000000x1
  shapeCasts_S3000000x1_S3000000 : S3000000x1.ShapeCasts S3000000
  bcast_S_S3000000 : S_.BroadcastsInDim S3000000 (![] : Fin 0 → Fin S3000000.rank)
  bcast_S3000000_S3000000x1_0 : S3000000.BroadcastsInDim S3000000x1 (![0] : Fin 1 → Fin S3000000x1.rank)
  inb_S10000x55_S10000x55_0_0 : ∀ a, (![0, 0] : Fin 2 → Nat) a + S10000x55.size a ≤ S10000x55.size a
  h_S10000x55 : 0 < S10000x55.numel
  shapeCasts_S10000x55_S10000x55 : S10000x55.ShapeCasts S10000x55
  reduces_S10000x55_S10000 : S10000x55.Reduces [1] S10000
  shapeCasts_S10000_S10000x1 : S10000.ShapeCasts S10000x1
  inb_S10000x1_S10000x1_0_0 : ∀ a, (![0, 0] : Fin 2 → Nat) a + S10000x1.size a ≤ S10000x1.size a
  h_S10000x1 : 0 < S10000x1.numel
  slices_S3000000x3_S3000000x1_0_2 : S3000000x3.Slices ![0, 2] S3000000x1
  bcast_S_S150000 : S_.BroadcastsInDim S150000 (![] : Fin 0 → Fin S150000.rank)
  dot_S50000x55_S55x64_S50000x64_1_0_0_1_n_n_wf : DotDims.WF S50000x55 S55x64 S50000x64 [1] [0] [0] [1] [] []
  dot_S50000x64_S64x64_S50000x64_1_0_0_1_n_n_wf : DotDims.WF S50000x64 S64x64 S50000x64 [1] [0] [0] [1] [] []
  dot_S50000x64_S64x1_S50000x1_1_0_0_1_n_n_wf : DotDims.WF S50000x64 S64x1 S50000x1 [1] [0] [0] [1] [] []
  dot_S50000x1_S64x1_S50000x64_1_1_0_0_n_n_wf : DotDims.WF S50000x1 S64x1 S50000x64 [1] [1] [0] [0] [] []
  dot_S50000x64_S64x64_S50000x64_1_1_0_0_n_n_wf : DotDims.WF S50000x64 S64x64 S50000x64 [1] [1] [0] [0] [] []
  dot_S50000x64_S55x64_S50000x55_1_1_0_0_n_n_wf : DotDims.WF S50000x64 S55x64 S50000x55 [1] [1] [0] [0] [] []
  scatter_S500_S50000x1_S50000_n_0_0_1_wf : ScatterDims.WF S500 S50000x1 S50000 [] [0] [0] 1
  gather_S50000x55_S3000000x1_S3000000x55_1_0_n_n_0_1_155_wf : GatherDims.WF S50000x55 S3000000x1 S3000000x55 [1] [0] [] [0] [] 1 ![1, 55]
  scatter_S150000_S3000000x1_S3000000_n_0_0_1_wf : ScatterDims.WF S150000 S3000000x1 S3000000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x55.size a ≤ S3000000x55.size a
  hwx0_0 : ∀ i : grid0.Coords, EltTy.bits .f32 = 32 ∨ (Rect.block (s := S3000000x55) S10000x55.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x55.size a ≤ S3000000x55.size a
  hwx0_1 : ∀ i : grid0.Coords, EltTy.bits .bf16 = 32 ∨ (Rect.block (s := S3000000x55) S10000x55.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x1.size a ≤ S3000000x1.size a
  hwx0_2 : ∀ i : grid0.Coords, EltTy.bits .f32 = 32 ∨ (Rect.block (s := S3000000x1) S10000x1.size (cc0_transform_2 i) (hinb0_2 i)).WholeWords (EltTy.packing .f32)

variable [Facts₀]

def dot_S50000x55_S55x64_S50000x64_1_0_0_1_n_n : DotDims S50000x55 S55x64 S50000x64 where
  lhsContracting := [1]
  rhsContracting := [0]
  lhsNonContracting := [0]
  rhsNonContracting := [1]
  lhsBatch := []
  rhsBatch := []
  wf := dot_S50000x55_S55x64_S50000x64_1_0_0_1_n_n_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def dot_S50000x64_S64x1_S50000x1_1_0_0_1_n_n : DotDims S50000x64 S64x1 S50000x1 where
  lhsContracting := [1]
  rhsContracting := [0]
  lhsNonContracting := [0]
  rhsNonContracting := [1]
  lhsBatch := []
  rhsBatch := []
  wf := dot_S50000x64_S64x1_S50000x1_1_0_0_1_n_n_wf
def dot_S50000x1_S64x1_S50000x64_1_1_0_0_n_n : DotDims S50000x1 S64x1 S50000x64 where
  lhsContracting := [1]
  rhsContracting := [1]
  lhsNonContracting := [0]
  rhsNonContracting := [0]
  lhsBatch := []
  rhsBatch := []
  wf := dot_S50000x1_S64x1_S50000x64_1_1_0_0_n_n_wf
def dot_S50000x64_S64x64_S50000x64_1_1_0_0_n_n : DotDims S50000x64 S64x64 S50000x64 where
  lhsContracting := [1]
  rhsContracting := [1]
  lhsNonContracting := [0]
  rhsNonContracting := [0]
  lhsBatch := []
  rhsBatch := []
  wf := dot_S50000x64_S64x64_S50000x64_1_1_0_0_n_n_wf
def dot_S50000x64_S55x64_S50000x55_1_1_0_0_n_n : DotDims S50000x64 S55x64 S50000x55 where
  lhsContracting := [1]
  rhsContracting := [1]
  lhsNonContracting := [0]
  rhsNonContracting := [0]
  lhsBatch := []
  rhsBatch := []
  wf := dot_S50000x64_S55x64_S50000x55_1_1_0_0_n_n_wf
def scatter_S500_S50000x1_S50000_n_0_0_1 : ScatterDims S500 S50000x1 S50000 where
  updateWindowDims := []
  insertedWindowDims := [0]
  scatterDimsToOperandDims := [0]
  indexVectorDim := 1
  wf := scatter_S500_S50000x1_S50000_n_0_0_1_wf
def gather_S50000x55_S3000000x1_S3000000x55_1_0_n_n_0_1_155 : GatherDims S50000x55 S3000000x1 S3000000x55 where
  offsetDims := [1]
  collapsedSliceDims := [0]
  operandBatchingDims := []
  startIndicesBatchingDims := []
  startIndexMap := [0]
  indexVectorDim := 1
  sliceSizes := ![1, 55]
  wf := gather_S50000x55_S3000000x1_S3000000x55_1_0_n_n_0_1_155_wf
def scatter_S150000_S3000000x1_S3000000_n_0_0_1 : ScatterDims S150000 S3000000x1 S3000000 where
  updateWindowDims := []
  insertedWindowDims := [0]
  scatterDimsToOperandDims := [0]
  indexVectorDim := 1
  wf := scatter_S150000_S3000000x1_S3000000_n_0_0_1_wf

abbrev win0_0 : Pipeline.Window sig grid0 :=
  Pipeline.Window.ofSpec (Memref.whole main_arg1) S10000x55.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v41) S10000x55.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v42) S10000x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S50000x55 : Shape := ⟨2, ![50000, 55]⟩
abbrev S3000000x55 : Shape := ⟨2, ![3000000, 55]⟩
abbrev S50000 : Shape := ⟨1, ![50000]⟩
abbrev S500 : Shape := ⟨1, ![500]⟩
abbrev S3000000x3 : Shape := ⟨2, ![3000000, 3]⟩
abbrev S3000000 : Shape := ⟨1, ![3000000]⟩
abbrev S55x64 : Shape := ⟨2, ![55, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S50000x64 : Shape := ⟨2, ![50000, 64]⟩
abbrev S1x64 : Shape := ⟨2, ![1, 64]⟩
abbrev S_ : Shape := ⟨0, ![]⟩
abbrev S50000x1 : Shape := ⟨2, ![50000, 1]⟩
abbrev S1x1 : Shape := ⟨2, ![1, 1]⟩
abbrev S3000000x1 : Shape := ⟨2, ![3000000, 1]⟩
abbrev S150000 : Shape := ⟨1, ![150000]⟩

abbrev nBuf : Space → Nat
  | .hbm => 73
  | .vmem => 0
  | .smem => 0
  | _ => 0

abbrev bufTy : (tb : Table) → Fin (tcTables nBuf tb) → BufTy
  | .hbm, ⟨0, _⟩ => ⟨S50000x55, .f32⟩
  | .hbm, ⟨1, _⟩ => ⟨S3000000x55, .f32⟩
  | .hbm, ⟨2, _⟩ => ⟨S50000, .i32⟩
  | .hbm, ⟨3, _⟩ => ⟨S500, .i32⟩
  | .hbm, ⟨4, _⟩ => ⟨S50000, .i32⟩
  | .hbm, ⟨5, _⟩ => ⟨S3000000x3, .i32⟩
  | .hbm, ⟨6, _⟩ => ⟨S3000000, .i32⟩
  | .hbm, ⟨7, _⟩ => ⟨S55x64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S64x1, .f32⟩
  | .hbm, ⟨12, _⟩ => ⟨S1, .f32⟩
  | .hbm, ⟨13, _⟩ => ⟨S50000x64, .f32⟩
  | .hbm, ⟨14, _⟩ => ⟨S1x64, .f32⟩
  | .hbm, ⟨15, _⟩ => ⟨S50000x64, .f32⟩
  | .hbm, ⟨16, _⟩ => ⟨S50000x64, .f32⟩
  | .hbm, ⟨17, _⟩ => ⟨S50000x64, .f32⟩
  | .hbm, ⟨18, _⟩ => ⟨S_, .f32⟩
  | .hbm, ⟨19, _⟩ => ⟨S50000x64, .f32⟩
  | .hbm, ⟨20, _⟩ => ⟨S50000x64, .f32⟩
  | .hbm, ⟨21, _⟩ => ⟨S50000x64, .f32⟩
  | .hbm, ⟨22, _⟩ => ⟨S1x64, .f32⟩
  | .hbm, ⟨23, _⟩ => ⟨S50000x64, .f32⟩
  | .hbm, ⟨24, _⟩ => ⟨S50000x64, .f32⟩
  | .hbm, ⟨25, _⟩ => ⟨S50000x64, .f32⟩
  | .hbm, ⟨26, _⟩ => ⟨S_, .f32⟩
  | .hbm, ⟨27, _⟩ => ⟨S50000x64, .f32⟩
  | .hbm, ⟨28, _⟩ => ⟨S50000x64, .f32⟩
  | .hbm, ⟨29, _⟩ => ⟨S50000x1, .f32⟩
  | .hbm, ⟨30, _⟩ => ⟨S1x1, .f32⟩
  | .hbm, ⟨31, _⟩ => ⟨S50000x1, .f32⟩
  | .hbm, ⟨32, _⟩ => ⟨S50000x1, .f32⟩
  | .hbm, ⟨33, _⟩ => ⟨S_, .f32⟩
  | .hbm, ⟨34, _⟩ => ⟨S50000x1, .f32⟩
  | .hbm, ⟨35, _⟩ => ⟨S50000x64, .f32⟩
  | .hbm, ⟨36, _⟩ => ⟨S50000x64, .f32⟩
  | .hbm, ⟨37, _⟩ => ⟨S50000x64, .f32⟩
  | .hbm, ⟨38, _⟩ => ⟨S50000x64, .f32⟩
  | .hbm, ⟨39, _⟩ => ⟨S50000x64, .f32⟩
  | .hbm, ⟨40, _⟩ => ⟨S50000x64, .f32⟩
  | .hbm, ⟨41, _⟩ => ⟨S50000x64, .f32⟩
  | .hbm, ⟨42, _⟩ => ⟨S50000x64, .f32⟩
  | .hbm, ⟨43, _⟩ => ⟨S50000x55, .f32⟩
  | .hbm, ⟨44, _⟩ => ⟨S50000, .f32⟩
  | .hbm, ⟨45, _⟩ => ⟨S_, .f32⟩
  | .hbm, ⟨46, _⟩ => ⟨S500, .f32⟩
  | .hbm, ⟨47, _⟩ => ⟨S50000x1, .i32⟩
  | .hbm, ⟨48, _⟩ => ⟨S500, .f32⟩
  | .hbm, ⟨49, _⟩ => ⟨S3000000x1, .i32⟩
  | .hbm, ⟨50, _⟩ => ⟨S3000000, .i32⟩
  | .hbm, ⟨51, _⟩ => ⟨S_, .i32⟩
  | .hbm, ⟨52, _⟩ => ⟨S3000000, .i32⟩
  | .hbm, ⟨53, _⟩ => ⟨S3000000, .i1⟩
  | .hbm, ⟨54, _⟩ => ⟨S_, .i32⟩
  | .hbm, ⟨55, _⟩ => ⟨S3000000, .i32⟩
  | .hbm, ⟨56, _⟩ => ⟨S3000000, .i32⟩
  | .hbm, ⟨57, _⟩ => ⟨S3000000, .i32⟩
  | .hbm, ⟨58, _⟩ => ⟨S3000000x1, .i32⟩
  | .hbm, ⟨59, _⟩ => ⟨S3000000x55, .f32⟩
  | .hbm, ⟨60, _⟩ => ⟨S3000000x55, .f32⟩
  | .hbm, ⟨61, _⟩ => ⟨S_, .f32⟩
  | .hbm, ⟨62, _⟩ => ⟨S3000000, .f32⟩
  | .hbm, ⟨63, _⟩ => ⟨S_, .i32⟩
  | .hbm, ⟨64, _⟩ => ⟨S3000000, .i32⟩
  | .hbm, ⟨65, _⟩ => ⟨S3000000, .i32⟩
  | .hbm, ⟨66, _⟩ => ⟨S3000000x1, .i32⟩
  | .hbm, ⟨67, _⟩ => ⟨S3000000, .i32⟩
  | .hbm, ⟨68, _⟩ => ⟨S3000000, .i32⟩
  | .hbm, ⟨69, _⟩ => ⟨S_, .f32⟩
  | .hbm, ⟨70, _⟩ => ⟨S150000, .f32⟩
  | .hbm, ⟨71, _⟩ => ⟨S3000000x1, .i32⟩
  | .hbm, ⟨72, _⟩ => ⟨S150000, .f32⟩
  | _, _ => ⟨S50000x55, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_cst : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_0 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_1 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_2 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c : Ref sig .tc := ⟨.hbm, 51, rfl⟩
abbrev main_v34 : Ref sig .tc := ⟨.hbm, 52, rfl⟩
abbrev main_v35 : Ref sig .tc := ⟨.hbm, 53, rfl⟩
abbrev main_c_3 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_4 : Ref sig .tc := ⟨.hbm, 61, rfl⟩
abbrev main_v42 : Ref sig .tc := ⟨.hbm, 62, rfl⟩
abbrev main_c_5 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_6 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  bcast_S_S50000x1 : S_.BroadcastsInDim S50000x1 (![] : Fin 0 → Fin S50000x1.rank)
  shapeCasts_S50000x1_S50000 : S50000x1.ShapeCasts S50000
  bcast_S_S500 : S_.BroadcastsInDim S500 (![] : Fin 0 → Fin S500.rank)
  bcast_S50000_S50000x1_0 : S50000.BroadcastsInDim S50000x1 (![0] : Fin 1 → Fin S50000x1.rank)
  slices_S3000000x3_S3000000x1_0_0 : S3000000x3.Slices ![0, 0] S3000000x1
  shapeCasts_S3000000x1_S3000000 : S3000000x1.ShapeCasts S3000000
  bcast_S_S3000000 : S_.BroadcastsInDim S3000000 (![] : Fin 0 → Fin S3000000.rank)
  bcast_S3000000_S3000000x1_0 : S3000000.BroadcastsInDim S3000000x1 (![0] : Fin 1 → Fin S3000000x1.rank)
  reducesTo_S3000000x55_S3000000_d1 : S3000000x55.ReducesTo [1] S3000000
  h_S_ : 0 < S_.numel
  slices_S3000000x3_S3000000x1_0_2 : S3000000x3.Slices ![0, 2] S3000000x1
  bcast_S_S150000 : S_.BroadcastsInDim S150000 (![] : Fin 0 → Fin S150000.rank)
  dot_S50000x55_S55x64_S50000x64_1_0_0_1_n_n_wf : DotDims.WF S50000x55 S55x64 S50000x64 [1] [0] [0] [1] [] []
  dot_S50000x64_S64x64_S50000x64_1_0_0_1_n_n_wf : DotDims.WF S50000x64 S64x64 S50000x64 [1] [0] [0] [1] [] []
  dot_S50000x64_S64x1_S50000x1_1_0_0_1_n_n_wf : DotDims.WF S50000x64 S64x1 S50000x1 [1] [0] [0] [1] [] []
  dot_S50000x1_S64x1_S50000x64_1_1_0_0_n_n_wf : DotDims.WF S50000x1 S64x1 S50000x64 [1] [1] [0] [0] [] []
  dot_S50000x64_S64x64_S50000x64_1_1_0_0_n_n_wf : DotDims.WF S50000x64 S64x64 S50000x64 [1] [1] [0] [0] [] []
  dot_S50000x64_S55x64_S50000x55_1_1_0_0_n_n_wf : DotDims.WF S50000x64 S55x64 S50000x55 [1] [1] [0] [0] [] []
  scatter_S500_S50000x1_S50000_n_0_0_1_wf : ScatterDims.WF S500 S50000x1 S50000 [] [0] [0] 1
  gather_S50000x55_S3000000x1_S3000000x55_1_0_n_n_0_1_155_wf : GatherDims.WF S50000x55 S3000000x1 S3000000x55 [1] [0] [] [0] [] 1 ![1, 55]
  scatter_S150000_S3000000x1_S3000000_n_0_0_1_wf : ScatterDims.WF S150000 S3000000x1 S3000000 [] [0] [0] 1

variable [Facts₀]

def dot_S50000x55_S55x64_S50000x64_1_0_0_1_n_n : DotDims S50000x55 S55x64 S50000x64 where
  lhsContracting := [1]
  rhsContracting := [0]
  lhsNonContracting := [0]
  rhsNonContracting := [1]
  lhsBatch := []
  rhsBatch := []
  wf := dot_S50000x55_S55x64_S50000x64_1_0_0_1_n_n_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def dot_S50000x64_S64x1_S50000x1_1_0_0_1_n_n : DotDims S50000x64 S64x1 S50000x1 where
  lhsContracting := [1]
  rhsContracting := [0]
  lhsNonContracting := [0]
  rhsNonContracting := [1]
  lhsBatch := []
  rhsBatch := []
  wf := dot_S50000x64_S64x1_S50000x1_1_0_0_1_n_n_wf
def dot_S50000x1_S64x1_S50000x64_1_1_0_0_n_n : DotDims S50000x1 S64x1 S50000x64 where
  lhsContracting := [1]
  rhsContracting := [1]
  lhsNonContracting := [0]
  rhsNonContracting := [0]
  lhsBatch := []
  rhsBatch := []
  wf := dot_S50000x1_S64x1_S50000x64_1_1_0_0_n_n_wf
def dot_S50000x64_S64x64_S50000x64_1_1_0_0_n_n : DotDims S50000x64 S64x64 S50000x64 where
  lhsContracting := [1]
  rhsContracting := [1]
  lhsNonContracting := [0]
  rhsNonContracting := [0]
  lhsBatch := []
  rhsBatch := []
  wf := dot_S50000x64_S64x64_S50000x64_1_1_0_0_n_n_wf
def dot_S50000x64_S55x64_S50000x55_1_1_0_0_n_n : DotDims S50000x64 S55x64 S50000x55 where
  lhsContracting := [1]
  rhsContracting := [1]
  lhsNonContracting := [0]
  rhsNonContracting := [0]
  lhsBatch := []
  rhsBatch := []
  wf := dot_S50000x64_S55x64_S50000x55_1_1_0_0_n_n_wf
def scatter_S500_S50000x1_S50000_n_0_0_1 : ScatterDims S500 S50000x1 S50000 where
  updateWindowDims := []
  insertedWindowDims := [0]
  scatterDimsToOperandDims := [0]
  indexVectorDim := 1
  wf := scatter_S500_S50000x1_S50000_n_0_0_1_wf
def gather_S50000x55_S3000000x1_S3000000x55_1_0_n_n_0_1_155 : GatherDims S50000x55 S3000000x1 S3000000x55 where
  offsetDims := [1]
  collapsedSliceDims := [0]
  operandBatchingDims := []
  startIndicesBatchingDims := []
  startIndexMap := [0]
  indexVectorDim := 1
  sliceSizes := ![1, 55]
  wf := gather_S50000x55_S3000000x1_S3000000x55_1_0_n_n_0_1_155_wf
def scatter_S150000_S3000000x1_S3000000_n_0_0_1 : ScatterDims S150000 S3000000x1 S3000000 where
  updateWindowDims := []
  insertedWindowDims := [0]
  scatterDimsToOperandDims := [0]
  indexVectorDim := 1
  wf := scatter_S150000_S3000000x1_S3000000_n_0_0_1_wf

class Facts : Prop extends Facts₀ where

variable [Facts]
-- ==== Proof.LibKeepdims.lean ====
/-
  A sum along the rows of a matrix kept as a column, read at an index.

  `jnp.sum(x, axis=-1, keepdims=True)` of an `[a, b]` block is printed as three steps: the sum over the second
  axis into an `[a]` vector, that vector re-laid as an `[a, 1]` column, and (where it meets the block again) the
  column repeated along the rows to `[a, b]`. Read at an index `(p, c)` each step is elementary:
  * the sum at `p` is `∑ k, x (p, k)` over the `b` entries of row `p` (at the exact instance, with the neutral
    accumulator, which the reading drops);
  * the column at `(p, 0)` is the vector at `p`: row-major positions `p · 1 + 0 = p`;
  * the repeated column at `(p, c)` is the column at `(p, 0)`, whatever `c` is.
  All three are stated for any extents `a`, `b`.
-/
import Idealize.ShloMosaic.Lib.ValueLayout
import Idealize.ShloMosaic.PureOps.Ideal.Laws

noncomputable section

namespace Cert.LibKeepdims

open Idealize.ShloMosaic Idealize.ShloMosaic.ValueIdx

variable {α : Type}

/-- An `[a]` vector re-laid as an `[a, 1]` column reads, at `(i, u)`, the vector at `i`, whatever the unit
    coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column repeated along the rows to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- At the exact instance, the sum of an `[a, b]` block over its second axis, from the neutral accumulator, is at
    `p` the sum of the `b` entries of row `p`. -/
theorem multiReduction_add_row {a b : ℕ} {φ : FTy} (src : FVec Ideal ⟨2, ![a, b]⟩ φ) (acc : BitVec φ.bits)
    (h : Shape.Reduces ⟨2, ![a, b]⟩ [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (funext fun ax => Fin.ext (by
      match ax with
      | ⟨0, _⟩ => rfl
      | ⟨1, _⟩ => rfl)))

end Cert.LibKeepdims

end
-- ==== Proof.RowDot.lean ====
/-
  Row-wise inner products of two tables.

  For two `[n, d]` tables `x` and `g` the column `rowDot x g` holds at `(r, 0)` the inner product of row `r` of `x`
  with row `r` of `g`:  `∑ k, x (r, k) · g (r, k)`  over the `d` entries of the row, on the extended reals.

  A block of rows computes its part of that column by itself: multiply the two blocks entry by entry (the second one
  first widened from its narrower float format, which changes no value over the extended reals), sum each row from
  the neutral accumulator, and lay the resulting vector out as a column. `body_apply` reads that computation at an
  entry `(p, u)` of the block's column as the inner product of the two blocks' rows `p`.

  Nothing here needs finiteness: only the definition of the row sum is used, never a law that moves a factor
  across it.
-/
import Idealize.ShloMosaic.Lib.ValueIdx
import Idealize.ShloMosaic.Lib.ValueLayout
import Idealize.ShloMosaic.Lib.Pipeline.Value
import Idealize.ShloMosaic.PureOps.Ideal.Laws
import proofs.«129339_j17746804867402_2_alg».proof.Proof.LibKeepdims

noncomputable section

namespace Cert.RowDot

open Idealize.ShloMosaic Idealize.ShloMosaic.ValueIdx

/-- The row-wise inner product of two `[n, d]` tables, kept as an `[n, 1]` column. -/
def rowDot {n d : ℕ} (x g : (⟨2, ![n, d]⟩ : Shape).Idx → EReal) : (⟨2, ![n, 1]⟩ : Shape).Idx → EReal :=
  fun j => ∑ k : Fin d, x (ix2 (⟨(j 0).val, idx2_lt0 j⟩ : Fin n) k) * g (ix2 (⟨(j 0).val, idx2_lt0 j⟩ : Fin n) k)

/-- At `(r, u)` the column holds the inner product of the two rows `r`. -/
theorem rowDot_apply {n d : ℕ} (x g : (⟨2, ![n, d]⟩ : Shape).Idx → EReal) (r : Fin n) (u : Fin 1) :
    rowDot x g (ix2 r u) = ∑ k : Fin d, x (ix2 r k) * g (ix2 r k) := rfl

/-- An `[a, 1]` column re-laid as an `[a]` vector reads, at `i`, the column's entry `(i, 0)`: the row-major
    position of `(i, 0)` is `i · 1 + 0 = i`. -/
theorem shapeCast_a1_a_apply {α : Type} {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- What a block of rows computes, read at entry `(p, u)` of its column: the entrywise product of the two blocks
    (the second widened from its narrower format, the identity on the extended reals), summed along each row from the
    neutral accumulator, laid out as a column — the inner product of the two blocks' rows `p`. -/
theorem body_apply {a b : ℕ} (x0 : FVec Ideal ⟨2, ![a, b]⟩ .f32) (x1 : FVec Ideal ⟨2, ![a, b]⟩ .bf16)
    (hc : (⟨2, ![a, b]⟩ : Shape).ShapeCasts ⟨2, ![a, b]⟩) (he : FTy.bf16.bits < FTy.f32.bits)
    (hr : Shape.Reduces ⟨2, ![a, b]⟩ [1] ⟨1, ![a]⟩) (hφ : FKind.Formats .f32)
    (hacc : (0x00000000#32 : BitVec FTy.f32.bits) = FKind.add.neutral .f32 hφ)
    (hk : (⟨1, ![a]⟩ : Shape).ShapeCasts ⟨2, ![a, 1]⟩) (p : Fin a) (u : Fin 1) :
    shapeCast ⟨2, ![a, 1]⟩
        (multiReduction .add [1] ⟨1, ![a]⟩ (mulf x0 (extf .f32 (shapeCast ⟨2, ![a, b]⟩ x1 hc) he)) 0x00000000#32 hr hφ hacc)
        hk (ix2 p u)
      = ∑ k : Fin b, x0 (ix2 p k) * x1 (ix2 p k) :=
  (Cert.LibKeepdims.shapeCast_a_a1_apply _ hk p u).trans
    ((Cert.LibKeepdims.multiReduction_add_row _ _ hr hφ hacc p).trans
      (Finset.sum_congr rfl fun k _ => by
        show x0 (ix2 p k) * shapeCast ⟨2, ![a, b]⟩ x1 hc (ix2 p k) = _
        rw [shapeCast_self]))

end Cert.RowDot

end
-- ==== Proof.Region.lean ====
/-
  The tiled region computes the row-wise inner products of its two operand arrays.

  The region walks 300 grid points. At point `t` it is handed rows `10000·t … 10000·t + 9999` of both `[3000000, 55]`
  operand arrays and writes rows `10000·t … 10000·t + 9999` of the `[3000000, 1]` result. What it writes at row `p` of
  its block is the inner product of the two operand blocks' rows `p`, that is of rows `10000·t + p` of the arrays: the
  block it writes back is block `t` of `rowDot` of the two arrays. Every row `r` lies in exactly the block of point
  `r / 10000`, so the 300 blocks cover the result array, which therefore ends holding `rowDot` of the two operand
  arrays as the region found them.
-/
import proofs.«129339_j17746804867402_2_alg».proof.Proof.Gen.KernelIdeal.Frame
import proofs.«129339_j17746804867402_2_alg».proof.Proof.RowDot
import Idealize.ShloMosaic.Lib.Pipeline.Value
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Contrib

open Cert.KernelIdeal Cert.KernelIdeal.Gen Cert.RowDot

variable (m : (ℓ : Loc nD τ sig) → Buf (Elt Ideal) ℓ)

theorem hz : (![0, 0] : Fin 2 → Nat) = fun _ => 0 := funext fun a => by fin_cases a <;> rfl

/-- At grid point `t` all three windows sit at block `(t, 0)` of their arrays. -/
theorem block_at : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- Entry `(p, k)` of the first operand's block at point `t` is entry `(10000·t + p, k)` of the first operand array. -/
theorem xblock_apply (c : Dev nD) (t : Fin cfg0.N) (p : Fin 10000) (k : Fin 55) (i : S3000000x55.Idx)
    (h0 : (i 0).val = t.val * 10000 + p.val) (h1 : (i 1).val = k.val) :
    (iblk m c 0 t : Vec Ideal S10000x55 .f32) (ix2 p k) = (V m c main_arg1 : S3000000x55.Idx → EReal) i := by
  obtain ⟨e0, e1, -⟩ := block_at t
  show V m c main_arg1 (((cfg0.win 0).blk t).view.emb (ix2 p k)) = V m c main_arg1 i
  refine congrArg (V m c main_arg1 : S3000000x55.Idx → EReal) (funext fun a => Fin.ext ?_)
  match a with
  | ⟨0, _⟩ => show win0_0.index t (0 : Fin 2) * 10000 + 1 * p.val = (i 0).val; rw [e0, h0]; omega
  | ⟨1, _⟩ => show win0_0.index t (1 : Fin 2) * 55 + 1 * k.val = (i 1).val; rw [e1, h1]; omega

/-- Entry `(p, k)` of the second operand's block at point `t` is entry `(10000·t + p, k)` of the second operand array. -/
theorem gblock_apply (c : Dev nD) (t : Fin cfg0.N) (p : Fin 10000) (k : Fin 55) (i : S3000000x55.Idx)
    (h0 : (i 0).val = t.val * 10000 + p.val) (h1 : (i 1).val = k.val) :
    (iblk m c 1 t : Vec Ideal S10000x55 .bf16) (ix2 p k) = (V m c main_v41 : S3000000x55.Idx → EReal) i := by
  obtain ⟨-, -, e0, e1, -⟩ := block_at t
  show V m c main_v41 (((cfg0.win 1).blk t).view.emb (ix2 p k)) = V m c main_v41 i
  refine congrArg (V m c main_v41 : S3000000x55.Idx → EReal) (funext fun a => Fin.ext ?_)
  match a with
  | ⟨0, _⟩ => show win0_1.index t (0 : Fin 2) * 10000 + 1 * p.val = (i 0).val; rw [e0, h0]; omega
  | ⟨1, _⟩ => show win0_1.index t (1 : Fin 2) * 55 + 1 * k.val = (i 1).val; rw [e1, h1]; omega

/-- What point `t` writes back is block `t` of the row-wise inner products of the two operand arrays. -/
theorem flushed_eq (c : Dev nD) (t : Fin cfg0.N) :
    (dats m 0 c).flushed 2 t
      = ((cfg0.win 2).blk t).view.read (Elt Ideal) (rowDot (V m c main_arg1 : S3000000x55.Idx → EReal) (V m c main_v41 : S3000000x55.Idx → EReal)) := by
  show (cfg0.win 2).cut (grid0.coords t) ((dats m 0 c).after 2 t) = _
  rw [after0_2]
  unfold out0_2
  rw [View.canon_unit_zero hz]
  simp only [View.ld_unit_zero (S := S10000x55) hz]
  obtain ⟨-, -, -, -, e0, e1⟩ := block_at t
  refine funext fun (j : S10000x1.Idx) => ?_
  obtain ⟨p, u, rfl⟩ : ∃ (p : Fin 10000) (u : Fin 1), j = ix2 p u := ⟨j 0, j 1, eq_ix2 j⟩
  have hp : t.val * 10000 + p.val < 3000000 := by
    have ht : t.val < 300 := lt_of_lt_of_eq t.isLt N_0
    have := p.isLt; omega
  show k0_pay1 (iblk m c 0 t) (iblk m c 1 t) (ix2 p u)
      = rowDot (V m c main_arg1 : S3000000x55.Idx → EReal) (V m c main_v41 : S3000000x55.Idx → EReal) (((cfg0.win 2).blk t).view.emb (ix2 p u))
  have hemb : ((cfg0.win 2).blk t).view.emb (ix2 p u) = (ix2 (⟨t.val * 10000 + p.val, hp⟩ : Fin 3000000) (0 : Fin 1) : S3000000x1.Idx) := by
    funext a; apply Fin.ext
    match a with
    | ⟨0, _⟩ => show win0_2.index t (0 : Fin 2) * 10000 + 1 * p.val = t.val * 10000 + p.val; rw [e0]; omega
    | ⟨1, _⟩ => show win0_2.index t (1 : Fin 2) * 1 + 1 * u.val = 0; rw [e1]; have := u.isLt; omega
  rw [hemb, rowDot_apply]
  unfold k0_pay1
  refine (body_apply (iblk m c 0 t) (iblk m c 1 t) _ _ _ _ _ _ p u).trans (Finset.sum_congr rfl fun k _ => ?_)
  rw [xblock_apply m c t p k (ix2 (⟨t.val * 10000 + p.val, hp⟩ : Fin 3000000) k) rfl rfl,
    gblock_apply m c t p k (ix2 (⟨t.val * 10000 + p.val, hp⟩ : Fin 3000000) k) rfl rfl]

/-- An index of the result array is in point `t`'s block iff each coordinate is in the block's range on its axis. -/
theorem mem_blk (t : Fin cfg0.N) (i : S3000000x1.Idx) :
    i ∈ ((cfg0.win 2).blk t).view.set ↔ ∀ a : Fin 2, win0_2.index t a * S10000x1.size a ≤ (i a).val
      ∧ (i a).val < win0_2.index t a * S10000x1.size a + S10000x1.size a := by
  show i ∈ ((View.whole main_v42).slice (win0_2.rect t)).set ↔ _
  rw [View.set_slice_whole, Rect.mem_set_unit]
  exact Iff.rfl

/-- Row `r` of the result array lies in the block of point `r / 10000`: the 300 blocks cover the array. -/
theorem covered (i : S3000000x1.Idx) : ∃ t : Fin cfg0.N, (cfg0.win 2).flush t = true ∧ i ∈ ((cfg0.win 2).blk t).view.set := by
  have hi0 : (i 0).val < 3000000 := idx2_lt0 i
  have hi1 : (i 1).val < 1 := idx2_lt1 i
  have hN : cfg0.N = 300 := N_0
  refine ⟨⟨(i 0).val / 10000, by rw [hN]; omega⟩, flush0_2 _, ?_⟩
  rw [mem_blk]
  obtain ⟨-, -, -, -, e0, e1⟩ := block_at ⟨(i 0).val / 10000, by rw [hN]; omega⟩
  intro a
  match a with
  | ⟨0, _⟩ =>
    show win0_2.index _ (0 : Fin 2) * 10000 ≤ (i 0).val ∧ (i 0).val < win0_2.index _ (0 : Fin 2) * 10000 + 10000
    rw [e0]; show (i 0).val / 10000 * 10000 ≤ (i 0).val ∧ (i 0).val < (i 0).val / 10000 * 10000 + 10000; omega
  | ⟨1, _⟩ =>
    show win0_2.index _ (1 : Fin 2) * 1 ≤ (i 1).val ∧ (i 1).val < win0_2.index _ (1 : Fin 2) * 1 + 1
    rw [e1]; omega

/-- The result array after the region: the row-wise inner products of the two operand arrays as the region found them. -/
theorem final (c : Dev nD) :
    (dats m 0 c).arrAt 2 cfg0.N = rowDot (V m c main_arg1 : S3000000x55.Idx → EReal) (V m c main_v41 : S3000000x55.Idx → EReal) :=
  (dats m 0 c).arrAt_eq_of_cover 2 _ (fun t _ => flushed_eq m c t) covered

end Cert.KernelIdeal.Contrib

end
-- ==== Proof.HostLines.lean ====
/-
  What the host lines around the tiled region compute.

  Before the region the program computes, from its argument arrays: the per-atom energies and their per-structure
  sums (the first result); the gradient of the summed energy with respect to the descriptors; the row indices taken
  from the first column of the index table; and the gradient table, narrowed to a shorter float format, gathered at
  those rows — the region's second operand. After the region it re-lays the region's column as a vector and adds its
  entries into the force slots numbered `3 · j + dim` — the second result.

  Each of these is the same chain of operations the reference program applies, so each is stated here with the
  reference's own stage functions (the energy sums, the gradient table, the row indices, the slot numbers) applied
  to this program's argument arrays; none of the chains is opened.
-/
import proofs.«129339_j17746804867402_2_alg».proof.Proof.Gen.KernelIdeal.Frame
import proofs.«129339_j17746804867402_2_alg».proof.Proof.Gen.ReferenceIdeal.Read
import Idealize.ShloMosaic.Lib.StableHlo.Run
import Idealize.ShloMosaic.Lib.Pipeline.Value

noncomputable section

namespace Cert.KernelIdeal.HostLines

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ)

set_option maxRecDepth 8192 in
set_option maxHeartbeats 2000000 in
/-- The region's second operand: the rows of the narrowed gradient table at the row indices. -/
theorem gathered (c : Dev nD) :
    V m c main_v41
      = Host.gather Cert.ReferenceIdeal.gather_S50000x55_S3000000x1_S3000000x55_1_0_n_n_0_1_155
          (truncf (F := Ideal) (s := Cert.ReferenceIdeal.S50000x55) (φ := .f32) .bf16 (Cert.ReferenceIdeal.Read.val_main_v27 (F := Ideal) (m ((c : Thread nD τ).loc main_arg0)) (m ((c : Thread nD τ).loc main_arg7)) (m ((c : Thread nD τ).loc main_arg8)) (m ((c : Thread nD τ).loc main_arg9)) (m ((c : Thread nD τ).loc main_arg10)) (m ((c : Thread nD τ).loc main_arg11))) (by decide))
          (Cert.ReferenceIdeal.Read.val_main_v39 (F := Ideal) (m ((c : Thread nD τ).loc main_arg5))) := by
  show StableHlo.after hostOps0 (fun b => m (c, b)) (Proc.devRef .tc main_v41) = _
  after_results_simp <;> rfl

/-- The tail's view of the memory: the buffers as the region found them, with the pipeline's arrays at their
    contents after the region. -/
abbrev afterRegion (c : Dev nD) : Valuation τ sig (Elt Ideal) :=
  Pipeline.withArrays spec0 c (V0 m c) fun w => (dats m 0 c).arrAt w cfg0.N

set_option maxRecDepth 8192 in
set_option maxHeartbeats 2000000 in
/-- The first result — the per-structure energy sums — is computed before the region and touched by nothing after
    it: it ends at the reference's energy stage of the argument arrays. -/
theorem energy_result (c : Dev nD) :
    Pipeline.afterTail₀ cfgs (dats m) 0 (V0 m) [hostOps1] c main_v31
      = Cert.ReferenceIdeal.Read.val_main_v31 (F := Ideal) (m ((c : Thread nD τ).loc main_arg0)) (m ((c : Thread nD τ).loc main_arg2)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  unfold Pipeline.afterTail₀
  rw [StableHlo.after_of_forall_not_mem (b := Proc.devRef .tc main_v31) _ _ (List.forall_iff_forall_mem.mp (by
      simp only [hostOps1, List.flatten_cons, List.flatten_nil, List.append_nil, List.cons_append,
        List.nil_append, List.Forall, StableHlo.nullary_writes, StableHlo.unary_writes, StableHlo.binary_writes,
        StableHlo.ternary_writes, StableHlo.reshape_writes, Finset.mem_singleton]
      repeat' apply And.intro
      all_goals exact StableHlo.devRef_ne_of_ne (by decide))),
    Pipeline.withArrays_of_ne _ c (V0 m c) _ main_v31 (by exact (by decide : ∀ w, Pipeline.arrRef spec0 w ≠ main_v31))]
  show StableHlo.after hostOps0 (fun b => m (c, b)) (Proc.devRef .tc main_v31) = _
  after_results_simp <;> rfl

set_option maxRecDepth 8192 in
set_option maxHeartbeats 2000000 in
/-- The second result: the region's column, re-laid as a vector, added into the force slots the reference's slot
    stage numbers, from the reference's zero table. -/
theorem forces_result (c : Dev nD) :
    Pipeline.afterTail₀ cfgs (dats m) 0 (V0 m) [hostOps1] c main_v51
      = Host.scatterAdd (F := Ideal) (φ := .f32) Cert.ReferenceIdeal.scatter_S150000_S3000000x1_S3000000_n_0_0_1
          (Cert.ReferenceIdeal.Read.val_main_v48 (F := Ideal))
          (Cert.ReferenceIdeal.Read.val_main_v49 (F := Ideal) (m ((c : Thread nD τ).loc main_arg5)) (m ((c : Thread nD τ).loc main_arg6)))
          (shapeCast Cert.ReferenceIdeal.S3000000 ((dats m 0 c).arrAt 2 cfg0.N) shapeCasts_S3000000x1_S3000000) := by
  have e42 : afterRegion m c (Proc.devRef .tc main_v42) = (dats m 0 c).arrAt 2 cfg0.N :=
    Pipeline.withArrays_arr spec0 launch0.win.arr_inj c _ _ 2
  have e5 : afterRegion m c (Proc.devRef .tc main_arg5) = (m ((c : Thread nD τ).loc main_arg5)) :=
    (Pipeline.withArrays_of_ne _ c (V0 m c) _ main_arg5 (by exact (by decide : ∀ w, Pipeline.arrRef spec0 w ≠ main_arg5))).trans (V_main_arg5 m c)
  have e6 : afterRegion m c (Proc.devRef .tc main_arg6) = (m ((c : Thread nD τ).loc main_arg6)) :=
    (Pipeline.withArrays_of_ne _ c (V0 m c) _ main_arg6 (by exact (by decide : ∀ w, Pipeline.arrRef spec0 w ≠ main_arg6))).trans (V_main_arg6 m c)
  unfold Pipeline.afterTail₀
  show StableHlo.after hostOps1 (afterRegion m c) (Proc.devRef .tc main_v51) = _
  after_results_simp
  rw [e42, e5, e6]
  rfl

end Cert.KernelIdeal.HostLines

end
-- ==== Proof.Bridge.lean ====
/-
  The reference's per-row force contributions are the row-wise inner products.

  The reference multiplies the derivative table `xd` entry by entry with the gathered rows of the energy gradient
  (row `r` of the gathered table is row `idx r` of the gradient table) and sums each row from `0`:
      contribution r = 0 + ∑ k, xd (r, k) · gradient (idx r, k).
  The tiled computation gathers the same rows from the gradient table narrowed to a shorter float format. Over the
  extended reals narrowing changes no value, so the gathered tables agree entry by entry, and the column of row-wise
  inner products, read as a vector, is the reference's contribution vector: at `r` both are
  `∑ k, xd (r, k) · gradient (idx r, k)`, the reference's leading `0` being the neutral element. The gather's own
  index arithmetic is the same on both sides and is never opened; neither is the gradient table's formula.
-/
import proofs.«129339_j17746804867402_2_alg».proof.Proof.Gen.ReferenceIdeal.Read
import proofs.«129339_j17746804867402_2_alg».proof.Proof.RowDot

noncomputable section

namespace Cert.ReferenceIdeal.Forces

open Cert.ReferenceIdeal Cert.ReferenceIdeal.Read Cert.RowDot Idealize.ShloMosaic Idealize.ShloMosaic.ValueIdx

/-- The row-wise inner products of `xd` with the rows gathered from the narrowed gradient table, read as a vector,
    are the reference's contributions: its entrywise product with the gathered rows of the gradient table, each row
    summed from `0`. -/
theorem contrib_eq (x0 : (⟨S50000x55, .f32⟩ : BufTy).Contents (Elt Ideal)) (x1 : (⟨S3000000x55, .f32⟩ : BufTy).Contents (Elt Ideal))
    (x5 : (⟨S3000000x3, .i32⟩ : BufTy).Contents (Elt Ideal)) (x7 : (⟨S55x64, .f32⟩ : BufTy).Contents (Elt Ideal))
    (x8 : (⟨S64, .f32⟩ : BufTy).Contents (Elt Ideal)) (x9 : (⟨S64x64, .f32⟩ : BufTy).Contents (Elt Ideal))
    (x10 : (⟨S64, .f32⟩ : BufTy).Contents (Elt Ideal)) (x11 : (⟨S64x1, .f32⟩ : BufTy).Contents (Elt Ideal))
    (ht : FTy.bf16.bits < FTy.f32.bits) (hc : S3000000x1.ShapeCasts S3000000) :
    shapeCast S3000000
        (rowDot (x1 : S3000000x55.Idx → EReal)
          (Host.gather gather_S50000x55_S3000000x1_S3000000x55_1_0_n_n_0_1_155
            (truncf (F := Ideal) (s := S50000x55) (φ := .f32) .bf16 (val_main_v27 (F := Ideal) x0 x7 x8 x9 x10 x11) ht) (val_main_v39 (F := Ideal) x5)))
        hc
      = val_main_v42 (F := Ideal) x0 x1 x5 x7 x8 x9 x10 x11 := by
  funext i
  obtain ⟨r, rfl⟩ : ∃ r : Fin 3000000, i = ix1 r := ⟨i 0, eq_ix1 i⟩
  rw [val_main_v42_apply]
  refine (shapeCast_a1_a_apply _ hc r).trans ?_
  rw [rowDot_apply]
  show _ = Ideal.ofBits .f32 0x00000000#32 + _
  rw [Ideal.ofBits_zero_f32, zero_add]
  refine Finset.sum_congr rfl fun k _ => ?_
  have hk : idx_main_v42 (ix1 r) k = ix2 r k :=
    funext fun a => Fin.ext (by match a with | ⟨0, _⟩ => rfl | ⟨1, _⟩ => rfl)
  rw [hk]
  rfl

end Cert.ReferenceIdeal.Forces

end
-- ==== Proof.KernelRun.lean ====
/-
  The tiled program's two results, as functions of its argument arrays.

  Energies: computed before the region — the reference's energy stage of the arguments.
  Forces: the region leaves the row-wise inner products of the derivative table with the gathered rows of the
  narrowed gradient table; read as a vector these are the reference's per-row contributions (narrowing changes no
  value over the extended reals, and a row's inner product is the reference's row sum from `0`); the tail adds them
  into the same force slots from the same zero table as the reference does. So the second result is the reference's
  force stage of the arguments. Both are read off one run of the program, together with the argument arrays, which it
  leaves unchanged.
-/
import proofs.«129339_j17746804867402_2_alg».proof.Proof.Gen.KernelIdeal.Frame
import proofs.«129339_j17746804867402_2_alg».proof.Proof.Region
import proofs.«129339_j17746804867402_2_alg».proof.Proof.HostLines
import proofs.«129339_j17746804867402_2_alg».proof.Proof.Bridge

noncomputable section

namespace Cert.KernelIdeal.Results

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-- The second result is the reference's force stage of the argument arrays. -/
theorem forces_eq (c : Dev nD) :
    Pipeline.afterTail₀ cfgs (dats m) 0 (V0 m) [hostOps1] c main_v51
      = Cert.ReferenceIdeal.Read.val_main_v50 (F := Ideal) (m ((c : Thread nD τ).loc main_arg0)) (m ((c : Thread nD τ).loc main_arg1)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (HostLines.forces_result m c).trans ?_
  unfold Cert.ReferenceIdeal.Read.val_main_v50
  refine congrArg (Host.scatterAdd (F := Ideal) (φ := .f32) Cert.ReferenceIdeal.scatter_S150000_S3000000x1_S3000000_n_0_0_1
    (Cert.ReferenceIdeal.Read.val_main_v48 (F := Ideal)) (Cert.ReferenceIdeal.Read.val_main_v49 (F := Ideal) (m ((c : Thread nD τ).loc main_arg5)) (m ((c : Thread nD τ).loc main_arg6)))) ?_
  rw [Contrib.final m c, V_main_arg1 m c, HostLines.gathered m c]
  exact Cert.ReferenceIdeal.Forces.contrib_eq _ _ _ _ _ _ _ _ _ _

/-- One run of the program: every weakly fair execution terminates with the energies and the forces at the
    reference's stages of the argument arrays, and the argument arrays unchanged. -/
theorem run : θ_run defs (onTc (τ := τ) (main (F := Ideal))) ⟨m, fun _ => 0, ρ⟩ (fun r => ∀ c : Dev nD,
      r.2.mem ((c.tc : Thread nD τ).loc main_v31) = Cert.ReferenceIdeal.Read.val_main_v31 (F := Ideal) (m ((c : Thread nD τ).loc main_arg0)) (m ((c : Thread nD τ).loc main_arg2)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))
      ∧ r.2.mem ((c.tc : Thread nD τ).loc main_v51) = Cert.ReferenceIdeal.Read.val_main_v50 (F := Ideal) (m ((c : Thread nD τ).loc main_arg0)) (m ((c : Thread nD τ).loc main_arg1)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨
      ((h c).2 main_v31 (Pipeline.mem_restRefs_of main_v31 (by decide) (by decide))).trans (HostLines.energy_result m c),
      ((h c).2 main_v51 (Pipeline.mem_restRefs_of main_v51 (by decide) (by decide))).trans (forces_eq m c),
      ((h c).2 main_arg0 (Pipeline.mem_restRefs_of main_arg0 (by decide) (by decide))).trans (W_main_arg0 m (dats m) c),
      ((h c).1 0).trans (((dats m 0 c).arrAt_in 0 rfl _).trans ((A_eq m c 0).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).2 main_arg10 (Pipeline.mem_restRefs_of main_arg10 (by decide) (by decide))).trans (W_main_arg10 m (dats m) c),
      ((h c).2 main_arg11 (Pipeline.mem_restRefs_of main_arg11 (by decide) (by decide))).trans (W_main_arg11 m (dats m) c),
      ((h c).2 main_arg12 (Pipeline.mem_restRefs_of main_arg12 (by decide) (by decide))).trans (W_main_arg12 m (dats m) c)⟩)
    (run_main m ρ)

end Cert.KernelIdeal.Results

end
-- ==== Proof.lean ====
/-
  The tiled force computation against its reference, on the extended reals.

  Both programs take atom descriptors `x`, a table `xd` of descriptor derivatives, index tables and the weights of a
  small tanh network. Both compute the per-atom energies, their sums per structure (the first result), and the
  gradient `dE/dD` of the summed energy with respect to the descriptors, by the same chain of operations. For each
  derivative row `r` the force contribution is the inner product of row `r` of `xd` with row `idx r` of `dE/dD`;
  the contributions are added into the force slots `3 · j + dim` (the second result).

  The reference forms the contributions as a whole-array product and row sum. The tiled program first narrows
  `dE/dD` to a shorter float format, gathers its rows, and then forms the inner products block by block, 10000 rows
  at a time, widening the gathered rows again inside each block. On the extended reals a change of float format is the
  identity, a row's inner product from the neutral accumulator is the reference's row sum from `0`, and the 300
  blocks cover every row; so the two contribution vectors are equal entry by entry (`Bridge.lean`, `Region.lean`,
  over `RowDot.lean`). Everything else — the network, its gradient, the index arithmetic, the two scatter-adds — is
  the same operations applied to equal arguments, and is carried as one function on both sides (`HostLines.lean`,
  `KernelRun.lean`). No step uses finiteness of the inputs.

  The three frame claims: the two tiled programs' frames are the generated frame certificates; the reference's is
  its generated run with the results dropped. The idealization rewrote no operation, so nothing is owed for it.
-/
import proofs.«129339_j17746804867402_2_alg».proof.Defs
import proofs.«129339_j17746804867402_2_alg».proof.Proof.Gen.Kernel
import proofs.«129339_j17746804867402_2_alg».proof.Proof.Gen.Kernel.Frame
import proofs.«129339_j17746804867402_2_alg».proof.Proof.Gen.KernelIdeal
import proofs.«129339_j17746804867402_2_alg».proof.Proof.Gen.KernelIdeal.Frame
import proofs.«129339_j17746804867402_2_alg».proof.Proof.Gen.ReferenceIdeal
import proofs.«129339_j17746804867402_2_alg».proof.Proof.Gen.Pre_finite_inputs
import proofs.«129339_j17746804867402_2_alg».proof.Proof.Gen.ReferenceIdeal.Run
import proofs.«129339_j17746804867402_2_alg».proof.Proof.Gen.ReferenceIdeal.Read
import proofs.«129339_j17746804867402_2_alg».proof.Proof.KernelRun
import Idealize.ShloMosaic.Adequacy
import Idealize.ShloMosaic.Init

noncomputable section

namespace Cert.Proof

open Idealize.ShloMosaic Idealize.SL.Sem

theorem frame_kernel [Cert.Kernel.Facts] [Cert.Pre_finite_inputs.Facts] : Cert.frame_Kernel :=
  fun m ρ _ => Cert.Kernel.Gen.frame m ρ

theorem frame_kernel_ideal [Cert.KernelIdeal.Facts] [Cert.Pre_finite_inputs.Facts] : Cert.frame_KernelIdeal :=
  fun m ρ _ => Cert.KernelIdeal.Gen.frame m ρ

/-- The reference's frame: its run, with the two results dropped. -/
theorem frame_reference [Cert.ReferenceIdeal.Facts] [Cert.Pre_finite_inputs.Facts] : Cert.frame_ReferenceIdeal :=
  fun m ρ _ => (θ_run Cert.ReferenceIdeal.defs _ _).mono (fun _ h c => (h c).2.2)
    (Cert.ReferenceIdeal.Value.run (F := Ideal) m ρ)

/-- From memories agreeing on the arguments both programs end with the energies and the forces at the reference's
    stages of the tiled program's argument arrays. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨_, _, Cert.KernelIdeal.Results.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨e0, e1, e2, e3, e4, e5, e6, e7, e8, e9, e10, e11, e12⟩ := hagree c
    rw [e0, e2, e7, e8, e9, e10, e11, e12]
    exact Cert.ReferenceIdeal.Read.val_main_v31_eq _ _ _ _ _ _ _ _
  · obtain ⟨e0, e1, e2, e3, e4, e5, e6, e7, e8, e9, e10, e11, e12⟩ := hagree c
    rw [Cert.ReferenceIdeal.Read.val_main_v50_eq m' c, e0, e1, e5, e6, e7, e8, e9, e10, e11]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
